-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x128 : Shape := ⟨3, ![64, 512, 128]⟩
abbrev S64x512x512 : Shape := ⟨3, ![64, 512, 512]⟩
abbrev S512x512 : Shape := ⟨2, ![512, 512]⟩
abbrev S_ : Shape := ⟨0, ![]⟩

class Facts : Prop where
  bcast_S_S64x512x128 : S_.BroadcastsInDim S64x512x128 (![] : Fin 0 → Fin S64x512x128.rank)
  reducesTo_S64x512x128_S_d0_1_2 : S64x512x128.ReducesTo [0, 1, 2] S_
  h_S_ : 0 < S_.numel
  bcast_S_S64x512x512 : S_.BroadcastsInDim S64x512x512 (![] : Fin 0 → Fin S64x512x512.rank)
  reducesTo_S64x512x512_S_d0_1_2 : S64x512x512.ReducesTo [0, 1, 2] S_
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S64x512x128 .f32) (main_arg1 : FVec F S64x512x512 .f32) (main_arg2 : FVec F S512x512 .f32) : IVec S_ 1 :=
  let main_v0 : FVec F S64x512x128 .f32 := Host.absf main_arg0
  let main_cst : FVec F S_ .f32 := constant S_ .f32 0x7F800000#32
  let main_v1 : FVec F S64x512x128 .f32 := broadcastInDim S64x512x128 ![] bcast_S_S64x512x128 main_cst
  let main_v2 : IVec S64x512x128 1 := cmpf .olt main_v0 main_v1
  let main_c : IVec S_ 1 := constantI S_ 1 1#1
  let main_v3 : IVec S_ 1 := (fun x v => Host.reduce IntOp.andi x v reducesTo_S64x512x128_S_d0_1_2 h_S_) main_v2 main_c
  let main_v4 : FVec F S64x512x512 .f32 := Host.absf main_arg1
  let main_cst_0 : FVec F S_ .f32 := constant S_ .f32 0x7F800000#32
  let main_v5 : FVec F S64x512x512 .f32 := broadcastInDim S64x512x512 ![] bcast_S_S64x512x512 main_cst_0
  let main_v6 : IVec S64x512x512 1 := cmpf .olt main_v4 main_v5
  let main_c_1 : IVec S_ 1 := constantI S_ 1 1#1
  let main_v7 : IVec S_ 1 := (fun x v => Host.reduce IntOp.andi x v reducesTo_S64x512x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S64x512x128 : Shape := ⟨3, ![64, 512, 128]⟩
abbrev S64x512x512 : Shape := ⟨3, ![64, 512, 512]⟩
abbrev S512x512 : Shape := ⟨2, ![512, 512]⟩
abbrev S_ : Shape := ⟨0, ![]⟩
abbrev S512 : Shape := ⟨1, ![512]⟩
abbrev S512x1 : Shape := ⟨2, ![512, 1]⟩
abbrev S4x512x512 : Shape := ⟨3, ![4, 512, 512]⟩
abbrev S4x512x128 : Shape := ⟨3, ![4, 512, 128]⟩
abbrev S1x512x512 : Shape := ⟨3, ![1, 512, 512]⟩
abbrev S4x512 : Shape := ⟨2, ![4, 512]⟩
abbrev S4x512x1 : Shape := ⟨3, ![4, 512, 1]⟩
abbrev S4x1x512 : Shape := ⟨3, ![4, 1, 512]⟩

abbrev nBuf : Space → Nat
  | .hbm => 18
  | .vmem => 7
  | .smem => 0
  | _ => 0

abbrev bufTy : (tb : Table) → Fin (tcTables nBuf tb) → BufTy
  | .hbm, ⟨0, _⟩ => ⟨S64x512x128, .f32⟩
  | .hbm, ⟨1, _⟩ => ⟨S64x512x512, .f32⟩
  | .hbm, ⟨2, _⟩ => ⟨S512x512, .f32⟩
  | .hbm, ⟨3, _⟩ => ⟨S_, .f32⟩
  | .hbm, ⟨4, _⟩ => ⟨S512, .f32⟩
  | .hbm, ⟨5, _⟩ => ⟨S_, .f32⟩
  | .hbm, ⟨6, _⟩ => ⟨S512, .f32⟩
  | .hbm, ⟨7, _⟩ => ⟨S512, .f32⟩
  | .hbm, ⟨8, _⟩ => ⟨S512x1, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S_, .f32⟩
  | .hbm, ⟨13, _⟩ => ⟨S512, .f32⟩
  | .hbm, ⟨14, _⟩ => ⟨S512x1, .f32⟩
  | .hbm, ⟨15, _⟩ => ⟨S512x512, .f32⟩
  | .hbm, ⟨16, _⟩ => ⟨S512x512, .f32⟩
  | .hbm, ⟨17, _⟩ => ⟨S64x512x128, .f32⟩
  | .local _ .vmem, ⟨0, _⟩ => ⟨S512x512, .f32⟩
  | .local _ .vmem, ⟨1, _⟩ => ⟨S4x512x512, .f32⟩
  | .local _ .vmem, ⟨2, _⟩ => ⟨S4x512x512, .f32⟩
  | .local _ .vmem, ⟨3, _⟩ => ⟨S4x512x128, .f32⟩
  | .local _ .vmem, ⟨4, _⟩ => ⟨S4x512x128, .f32⟩
  | .local _ .vmem, ⟨5, _⟩ => ⟨S4x512x128, .f32⟩
  | .local _ .vmem, ⟨6, _⟩ => ⟨S4x512x128, .f32⟩
  | _, _ => ⟨S64x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S512x512_S512_d1 : S512x512.ReducesTo [1] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S4x512x512_S4x512x512_0_0_0 : ∀ a, (![0, 0, 0] : Fin 3 → Nat) a + S4x512x512.size a ≤ S4x512x512.size a
  h_S4x512x512 : 0 < S4x512x512.numel
  inb_S4x512x128_S4x512x128_0_0_0 : ∀ a, (![0, 0, 0] : Fin 3 → Nat) a + S4x512x128.size a ≤ S4x512x128.size a
  h_S4x512x128 : 0 < S4x512x128.numel
  shapeCasts_S512x512_S1x512x512 : S512x512.ShapeCasts S1x512x512
  broadcasts_S1x512x512_S4x512x512 : S1x512x512.Broadcasts S4x512x512
  reduces_S4x512x512_S4x512 : S4x512x512.Reduces [2] S4x512
  shapeCasts_S4x512_S4x512x1 : S4x512.ShapeCasts S4x512x1
  broadcasts_S4x512x1_S4x512x512 : S4x512x1.Broadcasts S4x512x512
  shapeCasts_S4x512_S4x1x512 : S4x512.ShapeCasts S4x1x512
  broadcasts_S4x1x512_S4x512x512 : S4x1x512.Broadcasts S4x512x512
  bitsLt_bf16_f32 : FTy.bits .bf16 < FTy.bits .f32
  broadcasts_S4x512x1_S4x512x128 : S4x512x1.Broadcasts S4x512x128
  dot_S4x512x512_S4x512x128_S4x512x128_2_1_1_2_0_0_wf : DotDims.WF S4x512x512 S4x512x128 S4x512x128 [2] [1] [1] [2] [0] [0]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .f32 = 32 ∨ (Rect.block (s := S512x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x512.size a ≤ S64x512x512.size a
  hwx0_1 : ∀ i : grid0.Coords, EltTy.bits .f32 = 32 ∨ (Rect.block (s := S64x512x512) S4x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512x128.size a ≤ S64x512x128.size a
  hwx0_2 : ∀ i : grid0.Coords, EltTy.bits .f32 = 32 ∨ (Rect.block (s := S64x512x128) S4x512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x512x128.size a ≤ S64x512x128.size a
  hwx0_3 : ∀ i : grid0.Coords, EltTy.bits .f32 = 32 ∨ (Rect.block (s := S64x512x128) S4x512x128.size (cc0_transform_3 i) (hinb0_3 i)).WholeWords (EltTy.packing .f32)

variable [Facts₀]

def dot_S4x512x512_S4x512x128_S4x512x128_2_1_1_2_0_0 : DotDims S4x512x512 S4x512x128 S4x512x128 where
  lhsContracting := [2]
  rhsContracting := [1]
  lhsNonContracting := [1]
  rhsNonContracting := [2]
  lhsBatch := [0]
  rhsBatch := [0]
  wf := dot_S4x512x512_S4x512x128_S4x512x128_2_1_1_2_0_0_wf

abbrev win0_0 : Pipeline.Window sig grid0 :=
  Pipeline.Window.ofSpec (Memref.whole main_v10) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4x512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S4x512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x512x128 : Shape := ⟨3, ![64, 512, 128]⟩
abbrev S64x512x512 : Shape := ⟨3, ![64, 512, 512]⟩
abbrev S512x512 : Shape := ⟨2, ![512, 512]⟩
abbrev S_ : Shape := ⟨0, ![]⟩
abbrev S512 : Shape := ⟨1, ![512]⟩
abbrev S512x1 : Shape := ⟨2, ![512, 1]⟩
abbrev S1x512x512 : Shape := ⟨3, ![1, 512, 512]⟩
abbrev S64x512 : Shape := ⟨2, ![64, 512]⟩
abbrev S64x512x1 : Shape := ⟨3, ![64, 512, 1]⟩
abbrev S64x1x512 : Shape := ⟨3, ![64, 1, 512]⟩

abbrev nBuf : Space → Nat
  | .hbm => 47
  | .vmem => 0
  | .smem => 0
  | _ => 0

abbrev bufTy : (tb : Table) → Fin (tcTables nBuf tb) → BufTy
  | .hbm, ⟨0, _⟩ => ⟨S64x512x128, .f32⟩
  | .hbm, ⟨1, _⟩ => ⟨S64x512x512, .f32⟩
  | .hbm, ⟨2, _⟩ => ⟨S512x512, .f32⟩
  | .hbm, ⟨3, _⟩ => ⟨S_, .f32⟩
  | .hbm, ⟨4, _⟩ => ⟨S512, .f32⟩
  | .hbm, ⟨5, _⟩ => ⟨S_, .f32⟩
  | .hbm, ⟨6, _⟩ => ⟨S512, .f32⟩
  | .hbm, ⟨7, _⟩ => ⟨S512, .f32⟩
  | .hbm, ⟨8, _⟩ => ⟨S512x1, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S_, .f32⟩
  | .hbm, ⟨13, _⟩ => ⟨S512, .f32⟩
  | .hbm, ⟨14, _⟩ => ⟨S512x1, .f32⟩
  | .hbm, ⟨15, _⟩ => ⟨S512x512, .f32⟩
  | .hbm, ⟨16, _⟩ => ⟨S512x512, .f32⟩
  | .hbm, ⟨17, _⟩ => ⟨S1x512x512, .f32⟩
  | .hbm, ⟨18, _⟩ => ⟨S64x512x512, .f32⟩
  | .hbm, ⟨19, _⟩ => ⟨S64x512x512, .f32⟩
  | .hbm, ⟨20, _⟩ => ⟨S512x512, .i32⟩
  | .hbm, ⟨21, _⟩ => ⟨S512x512, .i32⟩
  | .hbm, ⟨22, _⟩ => ⟨S_, .i32⟩
  | .hbm, ⟨23, _⟩ => ⟨S512x512, .i32⟩
  | .hbm, ⟨24, _⟩ => ⟨S512x512, .i32⟩
  | .hbm, ⟨25, _⟩ => ⟨S512x512, .i1⟩
  | .hbm, ⟨26, _⟩ => ⟨S512x512, .f32⟩
  | .hbm, ⟨27, _⟩ => ⟨S1x512x512, .f32⟩
  | .hbm, ⟨28, _⟩ => ⟨S64x512x512, .f32⟩
  | .hbm, ⟨29, _⟩ => ⟨S64x512x512, .f32⟩
  | .hbm, ⟨30, _⟩ => ⟨S_, .f32⟩
  | .hbm, ⟨31, _⟩ => ⟨S64x512, .f32⟩
  | .hbm, ⟨32, _⟩ => ⟨S_, .f32⟩
  | .hbm, ⟨33, _⟩ => ⟨S64x512, .f32⟩
  | .hbm, ⟨34, _⟩ => ⟨S64x512, .i1⟩
  | .hbm, ⟨35, _⟩ => ⟨S64x512, .f32⟩
  | .hbm, ⟨36, _⟩ => ⟨S_, .f32⟩
  | .hbm, ⟨37, _⟩ => ⟨S_, .f32⟩
  | .hbm, ⟨38, _⟩ => ⟨S64x512, .f32⟩
  | .hbm, ⟨39, _⟩ => ⟨S64x512, .f32⟩
  | .hbm, ⟨40, _⟩ => ⟨S64x512x1, .f32⟩
  | .hbm, ⟨41, _⟩ => ⟨S64x512x512, .f32⟩
  | .hbm, ⟨42, _⟩ => ⟨S64x512x512, .f32⟩
  | .hbm, ⟨43, _⟩ => ⟨S64x1x512, .f32⟩
  | .hbm, ⟨44, _⟩ => ⟨S64x512x512, .f32⟩
  | .hbm, ⟨45, _⟩ => ⟨S64x512x512, .f32⟩
  | .hbm, ⟨46, _⟩ => ⟨S64x512x128, .f32⟩
  | _, _ => ⟨S64x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]

class Facts₀ : Prop where
  reducesTo_S512x512_S512_d1 : S512x512.ReducesTo [1] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  bcast_S512x512_S1x512x512_1_2 : S512x512.BroadcastsInDim S1x512x512 (![1, 2] : Fin 2 → Fin S1x512x512.rank)
  bcast_S1x512x512_S64x512x512_0_1_2 : S1x512x512.BroadcastsInDim S64x512x512 (![0, 1, 2] : Fin 3 → Fin S64x512x512.rank)
  bcast_S_S512x512 : S_.BroadcastsInDim S512x512 (![] : Fin 0 → Fin S512x512.rank)
  reducesTo_S64x512x512_S64x512_d2 : S64x512x512.ReducesTo [2] S64x512
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  bcast_S64x512x1_S64x512x512_0_1_2 : S64x512x1.BroadcastsInDim S64x512x512 (![0, 1, 2] : Fin 3 → Fin S64x512x512.rank)
  bcast_S64x512_S64x1x512_0_2 : S64x512.BroadcastsInDim S64x1x512 (![0, 2] : Fin 2 → Fin S64x1x512.rank)
  bcast_S64x1x512_S64x512x512_0_1_2 : S64x1x512.BroadcastsInDim S64x512x512 (![0, 1, 2] : Fin 3 → Fin S64x512x512.rank)
  dot_S64x512x512_S64x512x128_S64x512x128_2_1_1_2_0_0_wf : DotDims.WF S64x512x512 S64x512x128 S64x512x128 [2] [1] [1] [2] [0] [0]

variable [Facts₀]

def dot_S64x512x512_S64x512x128_S64x512x128_2_1_1_2_0_0 : DotDims S64x512x512 S64x512x128 S64x512x128 where
  lhsContracting := [2]
  rhsContracting := [1]
  lhsNonContracting := [1]
  rhsNonContracting := [2]
  lhsBatch := [0]
  rhsBatch := [0]
  wf := dot_S64x512x512_S64x512x128_S64x512x128_2_1_1_2_0_0_wf

class Facts : Prop extends Facts₀ where

variable [Facts]
-- ==== Proof.LibDiagonalFold.lean ====
/-
  Folding an identity matrix out of a symmetrically scaled sum, on the extended reals.

  For a row `n` of a square array `a`, scales `d` and a vector `x`,

      ∑ m, d n · (a m + δ n m) · d m · x m  =  (∑ m, d n · a m · d m · x m) + d n · d n · x n,

  where `δ` is the identity matrix. Only the diagonal term `m = n` needs a distributive law, and on the extended reals
  that law holds there as soon as the scale `d n` is a nonnegative real and `x n` is a real — whatever `a n` is, an
  infinity included (`scaled_add_one`): multiplying by a nonnegative real distributes over any sum, and a sum of any
  extended real and a real, times a real of either sign, distributes too (`add_coe_mul_coe`).
-/
import Idealize.ShloMosaic.PureOps.Ideal

noncomputable section

namespace Cert.LibDiagonalFold

/-- `(P + q) · y = P · y + q · y` for reals `q`, `y` and ANY extended real `P`: an infinite `P` absorbs the real
    `q` on the left and the real `q · y` on the right, and `y = 0` makes both sides `0`. -/
theorem add_coe_mul_coe (P : EReal) (q y : ℝ) :
    (P + (q : EReal)) * (y : EReal) = P * (y : EReal) + (q : EReal) * (y : EReal) := by
  induction P using EReal.rec with
  | bot =>
    rw [EReal.bot_add]
    rcases lt_trichotomy y 0 with h | h | h
    · rw [EReal.bot_mul_coe_of_neg h, ← EReal.coe_mul, EReal.top_add_coe]
    · subst h; simp
    · rw [EReal.bot_mul_coe_of_pos h, EReal.bot_add]
  | coe p =>
    rw [← EReal.coe_add, ← EReal.coe_mul, ← EReal.coe_mul, ← EReal.coe_mul, ← EReal.coe_add, add_mul]
  | top =>
    rw [EReal.top_add_coe]
    rcases lt_trichotomy y 0 with h | h | h
    · rw [EReal.top_mul_coe_of_neg h, EReal.bot_add]
    · subst h; simp
    · rw [EReal.top_mul_coe_of_pos h, ← EReal.coe_mul, EReal.top_add_coe]

/-- The diagonal term: `r · (a + 1) · r · y = r · a · r · y + r · r · y` for a nonnegative real `r`, a real `y` and ANY
    extended real `a`. -/
theorem scaled_add_one (a : EReal) (r y : ℝ) (hr : 0 ≤ r) :
    (r : EReal) * (a + 1) * (r : EReal) * (y : EReal)
      = (r : EReal) * a * (r : EReal) * (y : EReal) + (r : EReal) * (r : EReal) * (y : EReal) := by
  have h0 : (0 : EReal) ≤ (r : EReal) := EReal.coe_nonneg.mpr hr
  have ht : (r : EReal) ≠ ⊤ := EReal.coe_ne_top r
  rw [EReal.left_distrib_of_nonneg_of_ne_top h0 ht, mul_one, EReal.right_distrib_of_nonneg_of_ne_top h0 ht,
    ← EReal.coe_mul r r, add_coe_mul_coe]

/-- The identity folded out of the sum: every off-diagonal term is unchanged (`a m + 0 = a m`), and the diagonal term
    splits by `scaled_add_one`. -/
theorem sum_fold_diagonal {ι : Type*} [Fintype ι] [DecidableEq ι] (n : ι) (a d x : ι → EReal)
    (hd : ∃ r : ℝ, 0 ≤ r ∧ d n = (r : EReal)) (hx : ∃ y : ℝ, x n = (y : EReal)) :
    ∑ m, d n * (a m + if n = m then 1 else 0) * d m * x m = (∑ m, d n * a m * d m * x m) + d n * d n * x n := by
  obtain ⟨r, hr, hdn⟩ := hd
  obtain ⟨y, hy⟩ := hx
  have key : ∀ m, d n * (a m + if n = m then 1 else 0) * d m * x m
      = d n * a m * d m * x m + (if n = m then d n * d n * x n else 0) := by
    intro m
    by_cases h : n = m
    · subst h
      rw [if_pos rfl, if_pos rfl, hdn, hy]
      exact scaled_add_one (a n) r y hr
    · rw [if_neg h, if_neg h, add_zero, add_zero]
  rw [Finset.sum_congr rfl (fun m _ => key m), Finset.sum_add_distrib, Finset.sum_ite_eq Finset.univ n,
    if_pos (Finset.mem_univ n)]

end Cert.LibDiagonalFold

end
-- ==== Proof.Propagation.lean ====
/-
  The function both programs compute: symmetric degree normalization of a masked, row-stochastic adjacency with self
  loops, then one propagation step.

  For one batch entry write `a n m` for the masked adjacency (the softmax row `n`, entry `m`, times the mask) and
  `x m f` for the features. With the self loops added, row `n` sums to `(∑ k, a n k) + 1`; its scale is the inverse
  square root of that sum where the sum is positive and `0` elsewhere (`scaleOf`), and the result at `(n, f)` is

      ∑ m, d n · (a n m + δ n m) · d m · x m f                                        (`withLoops`)

  One program adds the identity and sums as written; the other never forms the identity: it adds `1` to the row sum
  and a separate `d n · d n · x n f` to the product with the loop-free adjacency (`loopsFolded`). The two agree when
  the features are real numbers (`withLoops_eq_loopsFolded`): the scale of ANY extended real is a nonnegative real
  (`scaleOf_real`: the inverse square root of `+∞` is `0`), and that is all the diagonal term's distributive law needs
  — the adjacency's entries may be anything.
-/
import Idealize.ShloMosaic.PureOps.Ideal
import Idealize.ShloMosaic.PureOps.Ideal.Laws
import Idealize.ShloMosaic.Lib.ValueIdx
import proofs.«107393_j73254962201099_2_alg».proof.Proof.LibDiagonalFold

noncomputable section

namespace Cert.Propagation

open Idealize.ShloMosaic Idealize.ShloMosaic.ValueIdx

/-- The degree scale of a row sum: its inverse square root where the sum is positive, `0` elsewhere. -/
def scaleOf (r : EReal) : EReal := if 0 < r then Ideal.rsqrt r else 0

/-- The scale is always a nonnegative real: `1/√r` at a positive real, `0` at `+∞` and wherever the sum is not positive. -/
theorem scaleOf_real (r : EReal) : ∃ q : ℝ, 0 ≤ q ∧ scaleOf r = (q : EReal) := by
  unfold scaleOf
  by_cases h : 0 < r
  · rw [if_pos h]
    induction r using EReal.rec with
    | bot => exact absurd h not_lt_bot
    | coe v =>
      have hv : 0 < v := EReal.coe_pos.mp h
      refine ⟨(Real.sqrt v)⁻¹, inv_nonneg.mpr (Real.sqrt_nonneg v), ?_⟩
      rw [Ideal.rsqrt_coe, if_neg (not_lt.mpr hv.le), if_neg hv.ne']
    | top => exact ⟨0, le_rfl, by rw [Ideal.rsqrt_top, EReal.coe_zero]⟩
  · rw [if_neg h]
    exact ⟨0, le_rfl, EReal.coe_zero.symm⟩

/-- A select on `r > 0` between the inverse square root of `r` and `0` (both programs spell the zero as the f32 word
    `0x00000000`) is the scale of `r`. -/
theorem select_gt_rsqrt (r : EReal) :
    Scalar.select (Ideal.cmp .ogt r (Ideal.ofBits .f32 0x00000000#32)) (Ideal.rsqrt r) (Ideal.ofBits .f32 0x00000000#32)
      = scaleOf r := by
  rw [Ideal.ofBits_zero_f32]
  show (if BitVec.ofBool (decide ((0 : EReal) < r)) = 1#1 then Ideal.rsqrt r else 0) = if 0 < r then Ideal.rsqrt r else 0
  by_cases h : (0 : EReal) < r <;> simp [h]

/-- The f32 word `0x3F800000` is the number one. -/
theorem ofBits_one_f32 : Ideal.ofBits .f32 0x3F800000#32 = 1 := by
  simp [Ideal.ofBits, Ideal.ieee]
  rw [← EReal.coe_mul]
  norm_num

variable {N F : ℕ}

/-- The propagation with the self loops added to the adjacency as an identity matrix. -/
def withLoops (a : Fin N → Fin N → EReal) (x : Fin N → Fin F → EReal) (n : Fin N) (f : Fin F) : EReal :=
  ∑ m : Fin N, scaleOf (∑ k : Fin N, (a n k + if n = k then 1 else 0)) * (a n m + if n = m then 1 else 0)
    * scaleOf (∑ k : Fin N, (a m k + if m = k then 1 else 0)) * x m f

/-- The propagation with the self loops folded out: `+ 1` on each row sum, `+ d n · d n · x n f` on the product. -/
def loopsFolded (a : Fin N → Fin N → EReal) (x : Fin N → Fin F → EReal) (n : Fin N) (f : Fin F) : EReal :=
  (∑ m : Fin N, scaleOf ((∑ k : Fin N, a n k) + 1) * a n m * scaleOf ((∑ k : Fin N, a m k) + 1) * x m f)
    + scaleOf ((∑ k : Fin N, a n k) + 1) * scaleOf ((∑ k : Fin N, a n k) + 1) * x n f

/-- A row of the identity sums to one, so the self loop adds exactly `1` to the row sum (no finiteness needed: sums
    of extended reals commute and associate). -/
theorem row_sum_loop (a : Fin N → EReal) (n : Fin N) :
    ∑ k : Fin N, (a k + if n = k then 1 else 0) = (∑ k : Fin N, a k) + 1 := by
  rw [Finset.sum_add_distrib, Finset.sum_ite_eq Finset.univ n, if_pos (Finset.mem_univ n)]

/-- The two forms agree when the features are real numbers. -/
theorem withLoops_eq_loopsFolded (a : Fin N → Fin N → EReal) (x : Fin N → Fin F → EReal)
    (hx : ∀ m f, ∃ y : ℝ, x m f = (y : EReal)) (n : Fin N) (f : Fin F) :
    withLoops a x n f = loopsFolded a x n f := by
  unfold withLoops loopsFolded
  simp only [row_sum_loop]
  exact LibDiagonalFold.sum_fold_diagonal n (fun m => a n m) (fun m => scaleOf ((∑ k : Fin N, a m k) + 1))
    (fun m => x m f) (scaleOf_real _) (hx n f)

/-! ## Over the arrays -/

/-- The result array as one function of the softmax `s` [512, 512], the mask `vm` [64, 512, 512] and the features
    `x` [64, 512, 128], read by coordinates: batch entry `b`, node `n`, feature `f`. -/
def resultAt (s : (⟨2, ![512, 512]⟩ : Shape).Idx → EReal) (vm : (⟨3, ![64, 512, 512]⟩ : Shape).Idx → EReal)
    (x : (⟨3, ![64, 512, 128]⟩ : Shape).Idx → EReal) (b : Fin 64) (n : Fin 512) (f : Fin 128) : EReal :=
  loopsFolded (fun p q => s (ix2 p q) * vm (ix3 b p q)) (fun q g => x (ix3 b q g)) n f

/-- The same as an array. -/
def result (s : (⟨2, ![512, 512]⟩ : Shape).Idx → EReal) (vm : (⟨3, ![64, 512, 512]⟩ : Shape).Idx → EReal)
    (x : (⟨3, ![64, 512, 128]⟩ : Shape).Idx → EReal) : (⟨3, ![64, 512, 128]⟩ : Shape).Idx → EReal :=
  fun i => resultAt s vm x (i 0) (i 1) (i 2)

theorem result_ix3 (s : (⟨2, ![512, 512]⟩ : Shape).Idx → EReal) (vm : (⟨3, ![64, 512, 512]⟩ : Shape).Idx → EReal)
    (x : (⟨3, ![64, 512, 128]⟩ : Shape).Idx → EReal) (b : Fin 64) (n : Fin 512) (f : Fin 128) :
    result s vm x (ix3 b n f) = resultAt s vm x b n f := rfl

end Cert.Propagation

end
-- ==== Proof.LibLayout.lean ====
import Idealize.ShloMosaic.Lib.Pipeline.Value
import Idealize.ShloMosaic.Lib.ValueIdx
import Idealize.ShloMosaic.Lib.ValueLayout

/-! # Shape casts and broadcasts read at an index, by coordinates

A shape cast reads the operand at the index with the same row-major position; a broadcast reads it at the same
coordinates, `0` on the operand's unit axes. Each statement names both indices by their coordinates, at any extents:
casts that add unit axes, casts that merge the leading axes into one or split one into several, and broadcasts along
unit axes. -/

namespace Cert.LibLayout

open Idealize.ShloMosaic Idealize.ShloMosaic.ValueIdx
variable {α : Type}

/-! ## Unit axes added by a shape cast -/

/-- An `[a, b, c]` array cast to `[a, 1, b, c]`. -/
theorem shapeCast_abc_a1bc_apply {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu]; simp only [Nat.mul_one, Nat.add_zero, Nat.zero_mul, Nat.zero_add])

/-- An `[a, b]` array cast to `[1, 1, a, b]`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    rw [hu, hv]; simp only [Nat.mul_one, Nat.add_zero, Nat.zero_mul, Nat.zero_add])

/-- An `[a]` array cast to `[1, 1, 1, a]`. -/
theorem shapeCast_a_111a_apply {a : ℕ} (x : (⟨1, ![a]⟩ : Shape).Idx → α)
    (h : (⟨1, ![a]⟩ : Shape).ShapeCasts ⟨4, ![1, 1, 1, a]⟩) (u v w : Fin 1) (i : Fin a) :
    shapeCast ⟨4, ![1, 1, 1, a]⟩ x h (ix4 u v w i) = x (ix1 i) :=
  shapeCast_apply x h _ _ (by
    have hu : u.val = 0 := by omega
    have hv : v.val = 0 := by omega
    have hw : w.val = 0 := by omega
    rw [Shape.rowMajor_val_one, Shape.rowMajor_val_four]
    show i.val = ((u.val * 1 + v.val) * 1 + w.val) * a + i.val
    rw [hu, hv, hw]; simp only [Nat.mul_one, Nat.add_zero, Nat.zero_mul, Nat.zero_add])

/-- An `[a]` array cast to `[1, 1, a]`. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_one, Shape.rowMajor_val_three]
    show i.val = (u.val * 1 + v.val) * a + i.val
    rw [hu, hv]; simp only [Nat.mul_one, Nat.add_zero, Nat.zero_mul, Nat.zero_add])

/-- An `[a, b, c]` array cast to `[a, b, c, 1]`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu]; simp only [Nat.mul_one, Nat.add_zero, Nat.zero_mul, Nat.zero_add])

/-- An `[a, b]` array cast to `[a, 1, b]`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu]; simp only [Nat.mul_one, Nat.add_zero, Nat.zero_mul, Nat.zero_add])

/-- An `[a, b]` array cast to `[a, b, 1]`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu]; simp only [Nat.mul_one, Nat.add_zero, Nat.zero_mul, Nat.zero_add])

/-! ## Leading axes merged into one, or one split into several -/

/-- An `[a, b, c, d]` array cast to `[n, d]` (the three leading axes merged): row `r` is the leading coordinates' row-major position. -/
theorem shapeCast_abcd_nd_apply {a b c d n : ℕ} (x : (⟨4, ![a, b, c, d]⟩ : Shape).Idx → α)
    (h : (⟨4, ![a, b, c, d]⟩ : Shape).ShapeCasts ⟨2, ![n, d]⟩) (i : Fin a) (j : Fin b) (k : Fin c) (l : Fin d) (r : Fin n) (hr : r.val = (i.val * b + j.val) * c + k.val) :
    shapeCast ⟨2, ![n, d]⟩ x h (ix2 r l) = x (ix4 i j k l) :=
  shapeCast_apply x h _ _ (by
    rw [Shape.rowMajor_val_four, Shape.rowMajor_val_two]
    show ((i.val * b + j.val) * c + k.val) * d + l.val = r.val * d + l.val
    rw [hr])

/-- An `[n, d]` array cast to `[a, b, c, d]` (the leading axis split in three). -/
theorem shapeCast_nd_abcd_apply {a b c d n : ℕ} (x : (⟨2, ![n, d]⟩ : Shape).Idx → α)
    (h : (⟨2, ![n, d]⟩ : Shape).ShapeCasts ⟨4, ![a, b, c, d]⟩) (i : Fin a) (j : Fin b) (k : Fin c) (l : Fin d) (r : Fin n) (hr : r.val = (i.val * b + j.val) * c + k.val) :
    shapeCast ⟨4, ![a, b, c, d]⟩ x h (ix4 i j k l) = x (ix2 r l) :=
  shapeCast_apply x h _ _ (by
    rw [Shape.rowMajor_val_two, Shape.rowMajor_val_four]
    show r.val * d + l.val = ((i.val * b + j.val) * c + k.val) * d + l.val
    rw [hr])

/-- An `[a, b, c]` array cast to `[n, c]` (the two leading axes merged). -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n) (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, c]` array cast to `[a, b, c]` (the leading axis split in two). -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n) (hr : r.val = i.val * b + j.val) :
    shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

/-! ## Broadcasts along unit axes -/

/-- An `[a, 1, c, d]` array broadcast to `[a, b, c, d]`. -/
theorem broadcastTo_a1cd_abcd_apply {a b c d : ℕ} (x : (⟨4, ![a, 1, c, d]⟩ : Shape).Idx → α)
    (h : (⟨4, ![a, 1, c, d]⟩ : Shape).Broadcasts ⟨4, ![a, b, c, d]⟩) (i : Fin a) (j : Fin b) (k : Fin c) (l : Fin d) :
    broadcastTo ⟨4, ![a, b, c, d]⟩ x h (ix4 i j k l) = x (ix4 i (0 : Fin 1) k l) := by
  refine broadcastTo_apply x h (ix4 i j k l) (ix4 i (0 : Fin 1) k l) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl
  | ⟨3, _⟩ =>
    show l.val = if d = 1 then 0 else l.val
    split
    · have := l.isLt; omega
    · rfl

/-- A `[1, b, c, d]` array broadcast to `[a, b, c, d]`. -/
theorem broadcastTo_1bcd_abcd_apply {a b c d : ℕ} (x : (⟨4, ![1, b, c, d]⟩ : Shape).Idx → α)
    (h : (⟨4, ![1, b, c, d]⟩ : Shape).Broadcasts ⟨4, ![a, b, c, d]⟩) (i : Fin a) (j : Fin b) (k : Fin c) (l : Fin d) :
    broadcastTo ⟨4, ![a, b, c, d]⟩ x h (ix4 i j k l) = x (ix4 (0 : Fin 1) j k l) := by
  refine broadcastTo_apply x h (ix4 i j k l) (ix4 (0 : Fin 1) j k l) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ =>
    show l.val = if d = 1 then 0 else l.val
    split
    · have := l.isLt; omega
    · rfl

/-- A `[1, 1, c, d]` array broadcast to `[a, b, c, d]`. -/
theorem broadcastTo_11cd_abcd_apply {a b c d : ℕ} (x : (⟨4, ![1, 1, c, d]⟩ : Shape).Idx → α)
    (h : (⟨4, ![1, 1, c, d]⟩ : Shape).Broadcasts ⟨4, ![a, b, c, d]⟩) (i : Fin a) (j : Fin b) (k : Fin c) (l : Fin d) :
    broadcastTo ⟨4, ![a, b, c, d]⟩ x h (ix4 i j k l) = x (ix4 (0 : Fin 1) (0 : Fin 1) k l) := by
  refine broadcastTo_apply x h (ix4 i j k l) (ix4 (0 : Fin 1) (0 : Fin 1) k l) fun ax => ?_
  match ax with
  | ⟨0, _⟩ => rfl
  | ⟨1, _⟩ => rfl
  | ⟨2, _⟩ =>
    show k.val = if c = 1 then 0 else k.val
    split
    · have := k.isLt; omega
    · rfl
  | ⟨3, _⟩ =>
    show l.val = if d = 1 then 0 else l.val
    split
    · have := l.isLt; omega
    · rfl

/-- A `[1, 1, 1, d]` array broadcast to `[a, b, c, d]`. -/
theorem broadcastTo_111d_abcd_apply {a b c d : ℕ} (x : (⟨4, ![1, 1, 1, d]⟩ : Shape).Idx → α)
    (h : (⟨4, ![1, 1, 1, d]⟩ : Shape).Broadcasts ⟨4, ![a, b, c, d]⟩) (i : Fin a) (j : Fin b) (k : Fin c) (l : Fin d) :
    broadcastTo ⟨4, ![a, b, c, d]⟩ x h (ix4 i j k l) = x (ix4 (0 : Fin 1) (0 : Fin 1) (0 : Fin 1) l) := by
  refine broadcastTo_apply x h (ix4 i j k l) (ix4 (0 : Fin 1) (0 : Fin 1) (0 : Fin 1) l) fun ax => ?_
  match ax with
  | ⟨0, _⟩ => rfl
  | ⟨1, _⟩ => rfl
  | ⟨2, _⟩ => rfl
  | ⟨3, _⟩ =>
    show l.val = if d = 1 then 0 else l.val
    split
    · have := l.isLt; omega
    · rfl

/-- An `[a, b, c, 1]` array broadcast to `[a, b, c, d]`. -/
theorem broadcastTo_abc1_abcd_apply {a b c d : ℕ} (x : (⟨4, ![a, b, c, 1]⟩ : Shape).Idx → α)
    (h : (⟨4, ![a, b, c, 1]⟩ : Shape).Broadcasts ⟨4, ![a, b, c, d]⟩) (i : Fin a) (j : Fin b) (k : Fin c) (l : Fin d) :
    broadcastTo ⟨4, ![a, b, c, d]⟩ x h (ix4 i j k l) = x (ix4 i j k (0 : Fin 1)) := by
  refine broadcastTo_apply x h (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

/-- An `[a, 1, c]` array broadcast to `[a, b, c]`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, 1]` array broadcast to `[a, b, c]`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, 1, c]` array broadcast to `[a, b, c]`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.LibLayout
-- ==== Proof.LibAxisSums.lean ====
import Idealize.ShloMosaic.PureOps.Ideal.Laws
import Idealize.ShloMosaic.Lib.Pipeline.Value
import Idealize.ShloMosaic.Lib.ValueIdx

/-! # Sums over one axis of a small-rank array, read at an index by coordinates

At exact values a vector sum-reduction over one axis, from the zero word, is at a result index the sum over that axis's
coordinate of the source at the index with the coordinate put back: the middle or the last axis of a rank-3 array, the
last or the first axis of a rank-2 array. With them: a sum over a rank-1 index set is the sum over its one coordinate,
and a shape cast that removes a unit axis in second place of a rank-4 array reads the operand with `0` there. -/

namespace Cert.LibAxisSums

open Idealize.ShloMosaic Idealize.ShloMosaic.ValueIdx
open scoped BigOperators

variable {α : Type}

/-- A rank-1 index set is its one coordinate's range … -/
def idxEquiv1 {n : ℕ} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- An `[a, 1, b, c]` array cast to `[a, b, c]`: the unit axis is dropped. -/
theorem shapeCast_a1bc_abc_apply {a b c : ℕ} (x : (⟨4, ![a, 1, b, c]⟩ : Shape).Idx → α)
    (h : (⟨4, ![a, 1, b, c]⟩ : Shape).ShapeCasts ⟨3, ![a, b, c]⟩) (i : Fin a) (j : Fin b) (k : Fin c) :
    shapeCast ⟨3, ![a, b, c]⟩ x h (ix3 i j k) = x (ix4 i (0 : Fin 1) j k) :=
  shapeCast_apply x h _ _ (by
    rw [Shape.rowMajor_val_four, Shape.rowMajor_val_three]
    show ((i.val * 1 + 0) * b + j.val) * c + k.val = (i.val * b + j.val) * c + k.val
    simp only [Nat.mul_one, Nat.add_zero])

/-- The sum over the middle axis of an `[a, b, c]` array, from the zero word, at `(i, k)`. -/
theorem sum_mid3_apply {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = 0x00000000#32) (i : Fin a) (k : Fin c) :
    multiReduction .add [1] ⟨2, ![a, c]⟩ src 0x00000000#32 h hφ hacc (ix2 i k) = ∑ j : Fin b, src (ix3 i j k) := by
  refine (Ideal.multiReduction_add_single src 0x00000000#32 h hφ hacc (ix2 i k)).trans ?_
  show ∑ j : Fin b, src (h.lift (ix2 i k) j) = _
  refine Finset.sum_congr rfl fun j _ => congrArg src (funext fun ax => Fin.ext ?_)
  match ax with
  | ⟨0, _⟩ => rfl
  | ⟨1, _⟩ => rfl
  | ⟨2, _⟩ => rfl

/-- The sum over the last axis of an `[a, b, c]` array, from the zero word, at `(i, j)`. -/
theorem sum_last3_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ k : Fin c, src (ix3 i j k) := by
  refine (Ideal.multiReduction_add_single src 0x00000000#32 h hφ hacc (ix2 i j)).trans ?_
  show ∑ k : Fin c, src (h.lift (ix2 i j) k) = _
  refine Finset.sum_congr rfl fun k _ => congrArg src (funext fun ax => Fin.ext ?_)
  match ax with
  | ⟨0, _⟩ => rfl
  | ⟨1, _⟩ => rfl
  | ⟨2, _⟩ => rfl

/-- The sum over the last axis of an `[a, b]` array, from the zero word, at `i`. -/
theorem sum_last2_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ j : Fin b, src (ix2 i j) := by
  refine (Ideal.multiReduction_add_single src 0x00000000#32 h hφ hacc (ix1 i)).trans ?_
  show ∑ j : Fin b, src (h.lift (ix1 i) j) = _
  refine Finset.sum_congr rfl fun j _ => congrArg src (funext fun ax => Fin.ext ?_)
  match ax with
  | ⟨0, _⟩ => rfl
  | ⟨1, _⟩ => rfl

/-- The sum over the first axis of an `[a, b]` array, from the zero word, at `j`. -/
theorem sum_first2_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (j : Fin b) :
    multiReduction .add [0] ⟨1, ![b]⟩ src 0x00000000#32 h hφ hacc (ix1 j) = ∑ i : Fin a, src (ix2 i j) := by
  refine (Ideal.multiReduction_add_single src 0x00000000#32 h hφ hacc (ix1 j)).trans ?_
  show ∑ i : Fin a, src (h.lift (ix1 j) i) = _
  refine Finset.sum_congr rfl fun i _ => congrArg src (funext fun ax => Fin.ext ?_)
  match ax with
  | ⟨0, _⟩ => rfl
  | ⟨1, _⟩ => rfl

end Cert.LibAxisSums
-- ==== Proof.KernelBody.lean ====
/-
  The kernel body's stored value, read at coordinates.

  On one block of four batch entries the body computes, from the softmax `s` [512, 512], the block of the mask
  `vm` [4, 512, 512] and the block of the features `x` [4, 512, 128]:
  the masked adjacency `a = s · vm` (the softmax repeated over the block's entries); each row's sum plus one and its
  scale `d`; the normalized adjacency `d(n) · a(n, m) · d(m)` — a column of `d` repeated along the rows times `a`
  times a row of `d` repeated down the columns —; its product with the features, entry by entry of the batch (a matrix
  product whose rounding to bf16 is the identity at exact values, accumulated from zero); and the self-loop term
  `d(n) · d(n) · x(n, f)` added to it. That is `Propagation.loopsFolded` of the block's batch entry.
-/
import proofs.«107393_j73254962201099_2_alg».proof.Proof.Gen.KernelIdeal.Skeleton
import proofs.«107393_j73254962201099_2_alg».proof.Proof.Propagation
import proofs.«107393_j73254962201099_2_alg».proof.Proof.LibLayout
import proofs.«107393_j73254962201099_2_alg».proof.Proof.LibAxisSums
import Idealize.ShloMosaic.Lib.ValueLayout
import Idealize.ShloMosaic.PureOps.Ideal.Laws

noncomputable section

namespace Cert.KernelBody

open Idealize.ShloMosaic Idealize.ShloMosaic.ValueIdx Cert.KernelIdeal Cert.KernelIdeal.Gen
open Cert.Propagation Cert.LibLayout Cert.LibAxisSums

/-! ## The body's three pieces -/

/-- The masked adjacency of a block: the softmax, repeated over the block's batch entries, times the mask. -/
def masked (v0 : FVec Ideal S512x512 .f32) (v2 : FVec Ideal S4x512x512 .f32) : FVec Ideal S4x512x512 .f32 :=
  mulf (broadcastTo S4x512x512 (shapeCast S1x512x512 (shapeCast S512x512 v0 shapeCasts_S512x512_S512x512)
    shapeCasts_S512x512_S1x512x512) broadcasts_S1x512x512_S4x512x512) v2

/-- The rows' scales: the row sum plus one, its inverse square root where that is positive, zero elsewhere. -/
def scales (a : FVec Ideal S4x512x512 .f32) : FVec Ideal S4x512 .f32 :=
  select
    (cmpf .ogt (addf (multiReduction .add [2] S4x512 a 0x00000000#32 reduces_S4x512x512_S4x512 (.inl rfl) rfl)
      (broadcast S4x512 (Scalar.ofBits .f32 0x3F800000#32))) (broadcast S4x512 (Scalar.ofBits .f32 0x00000000#32)))
    (rsqrt (addf (multiReduction .add [2] S4x512 a 0x00000000#32 reduces_S4x512x512_S4x512 (.inl rfl) rfl)
      (broadcast S4x512 (Scalar.ofBits .f32 0x3F800000#32))))
    (broadcast S4x512 (Scalar.ofBits .f32 0x00000000#32))

/-- The normalized adjacency times the features, plus the self-loop term. -/
def propagated (a : FVec Ideal S4x512x512 .f32) (d : FVec Ideal S4x512 .f32) (v3 : FVec Ideal S4x512x128 .f32) :
    FVec Ideal S4x512x128 .f32 :=
  addf
    (matmul dot_S4x512x512_S4x512x128_S4x512x128_2_1_1_2_0_0 none
      (truncf .bf16 (mulf (mulf (broadcastTo S4x512x512 (shapeCast S4x512x1 d shapeCasts_S4x512_S4x512x1)
        broadcasts_S4x512x1_S4x512x512) a) (broadcastTo S4x512x512 (shapeCast S4x1x512 d shapeCasts_S4x512_S4x1x512)
        broadcasts_S4x1x512_S4x512x512)) bitsLt_bf16_f32)
      (truncf .bf16 v3 bitsLt_bf16_f32) (constant S4x512x128 .f32 0x00000000#32))
    (mulf (broadcastTo S4x512x128 (shapeCast S4x512x1 (mulf d d) shapeCasts_S4x512_S4x512x1)
      broadcasts_S4x512x1_S4x512x128) v3)

/-- The stored value is the three pieces composed. -/
theorem payload_eq (v0 : Vec Ideal S512x512 .f32) (v2 : Vec Ideal S4x512x512 .f32) (v3 : Vec Ideal S4x512x128 .f32) :
    k0_pay1 (F := Ideal) v0 v2 v3 = propagated (masked v0 v2) (scales (masked v0 v2)) v3 := rfl

/-! ## Each piece at coordinates -/

theorem masked_at (v0 : FVec Ideal S512x512 .f32) (v2 : FVec Ideal S4x512x512 .f32) (b : Fin 4) (n k : Fin 512) :
    masked v0 v2 (ix3 b n k) = v0 (ix2 n k) * v2 (ix3 b n k) := by
  unfold masked
  rw [mulf_apply, broadcastTo_1bc_abc_apply, shapeCast_ab_1ab_apply, shapeCast_self]

theorem scales_at (a : FVec Ideal S4x512x512 .f32) (b : Fin 4) (n : Fin 512) :
    scales a (ix2 b n) = scaleOf ((∑ k : Fin 512, a (ix3 b n k)) + 1) := by
  have hsum : addf (multiReduction .add [2] S4x512 a 0x00000000#32 reduces_S4x512x512_S4x512 (.inl rfl) rfl)
      (broadcast S4x512 (Scalar.ofBits .f32 0x3F800000#32)) (ix2 b n) = (∑ k : Fin 512, a (ix3 b n k)) + 1 := by
    rw [addf_apply, broadcast_apply]
    refine congrArg₂ (· + ·) (sum_last3_apply a reduces_S4x512x512_S4x512 (.inl rfl) rfl b n) ?_
    exact ofBits_one_f32
  unfold scales
  rw [select_apply, cmpf_apply, broadcast_apply, hsum]
  show Scalar.select (Ideal.cmp .ogt _ (Ideal.ofBits .f32 0x00000000#32))
    (Ideal.rsqrt (addf (multiReduction .add [2] S4x512 a 0x00000000#32 reduces_S4x512x512_S4x512 (.inl rfl) rfl)
      (broadcast S4x512 (Scalar.ofBits .f32 0x3F800000#32)) (ix2 b n))) (Ideal.ofBits .f32 0x00000000#32) = _
  rw [hsum]
  exact select_gt_rsqrt _

/-! The operand indices of the batched product at output index `i` and contraction index `q`, axis by axis: the
    batch axis and the kept axis come from `i`, the contracted axis from `q`. -/

theorem lhs_axis0 (i : S4x512x128.Idx) (q : dot_S4x512x512_S4x512x128_S4x512x128_2_1_1_2_0_0.contr.Idx) :
    (dot_S4x512x512_S4x512x128_S4x512x128_2_1_1_2_0_0.lhsIdx i q 0).val = (i 0).val := by
  unfold DotDims.lhsIdx
  rw [dif_pos (show (0 : Fin S4x512x512.rank) ∈ dot_S4x512x512_S4x512x128_S4x512x128_2_1_1_2_0_0.lhsBatch by decide)]
  rfl
theorem lhs_axis1 (i : S4x512x128.Idx) (q : dot_S4x512x512_S4x512x128_S4x512x128_2_1_1_2_0_0.contr.Idx) :
    (dot_S4x512x512_S4x512x128_S4x512x128_2_1_1_2_0_0.lhsIdx i q 1).val = (i 1).val := by
  unfold DotDims.lhsIdx
  rw [dif_neg (show ¬(1 : Fin S4x512x512.rank) ∈ dot_S4x512x512_S4x512x128_S4x512x128_2_1_1_2_0_0.lhsBatch by decide),
    dif_pos (show (1 : Fin S4x512x512.rank) ∈ dot_S4x512x512_S4x512x128_S4x512x128_2_1_1_2_0_0.lhsNonContracting by decide)]
  rfl
theorem lhs_axis2 (i : S4x512x128.Idx) (q : dot_S4x512x512_S4x512x128_S4x512x128_2_1_1_2_0_0.contr.Idx) :
    (dot_S4x512x512_S4x512x128_S4x512x128_2_1_1_2_0_0.lhsIdx i q 2).val = (q ⟨0, by decide⟩).val :=
  dot_S4x512x512_S4x512x128_S4x512x128_2_1_1_2_0_0.lhsIdx_val_of_single rfl i q
theorem rhs_axis0 (i : S4x512x128.Idx) (q : dot_S4x512x512_S4x512x128_S4x512x128_2_1_1_2_0_0.contr.Idx) :
    (dot_S4x512x512_S4x512x128_S4x512x128_2_1_1_2_0_0.rhsIdx i q 0).val = (i 0).val := by
  unfold DotDims.rhsIdx
  rw [dif_pos (show (0 : Fin S4x512x128.rank) ∈ dot_S4x512x512_S4x512x128_S4x512x128_2_1_1_2_0_0.rhsBatch by decide)]
  rfl
theorem rhs_axis1 (i : S4x512x128.Idx) (q : dot_S4x512x512_S4x512x128_S4x512x128_2_1_1_2_0_0.contr.Idx) :
    (dot_S4x512x512_S4x512x128_S4x512x128_2_1_1_2_0_0.rhsIdx i q 1).val = (q ⟨0, by decide⟩).val :=
  dot_S4x512x512_S4x512x128_S4x512x128_2_1_1_2_0_0.rhsIdx_val_of_single rfl i q
theorem rhs_axis2 (i : S4x512x128.Idx) (q : dot_S4x512x512_S4x512x128_S4x512x128_2_1_1_2_0_0.contr.Idx) :
    (dot_S4x512x512_S4x512x128_S4x512x128_2_1_1_2_0_0.rhsIdx i q 2).val = (i 2).val := by
  unfold DotDims.rhsIdx
  rw [dif_neg (show ¬(2 : Fin S4x512x128.rank) ∈ dot_S4x512x512_S4x512x128_S4x512x128_2_1_1_2_0_0.rhsBatch by decide),
    dif_pos (show (2 : Fin S4x512x128.rank) ∈ dot_S4x512x512_S4x512x128_S4x512x128_2_1_1_2_0_0.rhsNonContracting by decide)]
  rfl

/-- The batched matrix product at `(b, n, f)`: the sum over `m` of the left operand at `(b, n, m)` times the right at
    `(b, m, f)`. -/
theorem product_at (l : FVec Ideal S4x512x512 .bf16) (r : FVec Ideal S4x512x128 .bf16) (b : Fin 4) (n : Fin 512) (f : Fin 128) :
    matmul dot_S4x512x512_S4x512x128_S4x512x128_2_1_1_2_0_0 none l r (constant S4x512x128 .f32 0x00000000#32) (ix3 b n f)
      = ∑ m : Fin 512, l (ix3 b n m) * r (ix3 b m f) := by
  refine (Ideal.matmul_constant_zero_apply dot_S4x512x512_S4x512x128_S4x512x128_2_1_1_2_0_0 none l r (ix3 b n f)).trans ?_
  rw [← Equiv.sum_comp (contrEquiv1 dot_S4x512x512_S4x512x128_S4x512x128_2_1_1_2_0_0 512 rfl rfl).symm]
  refine Finset.sum_congr rfl fun m _ => ?_
  have hm := contrEquiv1_symm_val dot_S4x512x512_S4x512x128_S4x512x128_2_1_1_2_0_0 512 rfl rfl m
  have el : dot_S4x512x512_S4x512x128_S4x512x128_2_1_1_2_0_0.lhsIdx (ix3 b n f)
      ((contrEquiv1 dot_S4x512x512_S4x512x128_S4x512x128_2_1_1_2_0_0 512 rfl rfl).symm m) = ix3 b n m :=
    funext fun ax => Fin.ext (by
      match ax with
      | ⟨0, _⟩ => exact lhs_axis0 _ _
      | ⟨1, _⟩ => exact lhs_axis1 _ _
      | ⟨2, _⟩ => exact (lhs_axis2 _ _).trans hm)
  have er : dot_S4x512x512_S4x512x128_S4x512x128_2_1_1_2_0_0.rhsIdx (ix3 b n f)
      ((contrEquiv1 dot_S4x512x512_S4x512x128_S4x512x128_2_1_1_2_0_0 512 rfl rfl).symm m) = ix3 b m f :=
    funext fun ax => Fin.ext (by
      match ax with
      | ⟨0, _⟩ => exact rhs_axis0 _ _
      | ⟨1, _⟩ => exact (rhs_axis1 _ _).trans hm
      | ⟨2, _⟩ => exact rhs_axis2 _ _)
  rw [el, er]

theorem propagated_at (a : FVec Ideal S4x512x512 .f32) (d : FVec Ideal S4x512 .f32) (v3 : FVec Ideal S4x512x128 .f32)
    (b : Fin 4) (n : Fin 512) (f : Fin 128) :
    propagated a d v3 (ix3 b n f)
      = (∑ m : Fin 512, d (ix2 b n) * a (ix3 b n m) * d (ix2 b m) * v3 (ix3 b m f))
        + d (ix2 b n) * d (ix2 b n) * v3 (ix3 b n f) := by
  unfold propagated
  rw [addf_apply, product_at]
  refine congrArg₂ (· + ·) (Finset.sum_congr rfl fun m _ => ?_) ?_
  · rw [truncf_apply, truncf_apply, mulf_apply, mulf_apply, broadcastTo_ab1_abc_apply, shapeCast_ab_ab1_apply,
      broadcastTo_a1c_abc_apply, shapeCast_ab_a1b_apply]
  · rw [mulf_apply, broadcastTo_ab1_abc_apply, shapeCast_ab_ab1_apply, mulf_apply]

/-! ## The stored value -/

/-- The body's stored value at `(b, n, f)` of the block: the propagation, self loops folded out, of the block's batch
    entry `b`. -/
theorem payload_at (v0 : Vec Ideal S512x512 .f32) (v2 : Vec Ideal S4x512x512 .f32) (v3 : Vec Ideal S4x512x128 .f32)
    (b : Fin 4) (n : Fin 512) (f : Fin 128) :
    k0_pay1 (F := Ideal) v0 v2 v3 (ix3 b n f)
      = loopsFolded (fun p q => v0 (ix2 p q) * v2 (ix3 b p q)) (fun q g => v3 (ix3 b q g)) n f := by
  rw [payload_eq, propagated_at]
  unfold loopsFolded
  simp only [scales_at, masked_at]

end Cert.KernelBody

end
-- ==== Proof.KernelArray.lean ====
/-
  From the kernel's blocks to its result array.

  The grid has sixteen points; point `t` works on batch entries `4t … 4t + 3`: it reads the whole softmax, rows
  `4t … 4t + 3` of the mask and of the features, and writes rows `4t … 4t + 3` of the result. What it writes is the
  body's stored value of those blocks, which at `(b, n, f)` of the block is `Propagation.resultAt` at batch entry
  `4t + b` (`block_value`, `written_eq`). The sixteen blocks tile the result array (batch entry `β` lies in the block
  of point `β / 4`), so the array after the run is `Propagation.result` of the softmax as the region finds it, the
  mask and the features (`array_eq`, `run`).
-/
import proofs.«107393_j73254962201099_2_alg».proof.Proof.Gen.KernelIdeal.Value
import proofs.«107393_j73254962201099_2_alg».proof.Proof.KernelBody

noncomputable section

namespace Cert.KernelArray

open Cert.KernelIdeal Cert.KernelIdeal.Gen Idealize.ShloMosaic Idealize.ShloMosaic.TcCoe Idealize.SL.Sem
open Idealize.ShloMosaic.Pipeline (Dat)
open Idealize.ShloMosaic.ValueIdx Cert.Propagation

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The stored value of three blocks that are rows of whole arrays: if the first block is the softmax `s`, and rows
    `b` of the other two are rows `β` of the mask `vm` and of the features `x`, the value at `(b, n, f)` is the result at
    `(β, n, f)`. -/
theorem block_value (x0 : Vec Ideal S512x512 .f32) (x1 : Vec Ideal S4x512x512 .f32) (x2 : Vec Ideal S4x512x128 .f32)
    (s : (⟨2, ![512, 512]⟩ : Shape).Idx → EReal) (vm : (⟨3, ![64, 512, 512]⟩ : Shape).Idx → EReal)
    (x : (⟨3, ![64, 512, 128]⟩ : Shape).Idx → EReal) (β : Fin 64) (b : Fin 4) (n : Fin 512) (f : Fin 128)
    (h0 : ∀ p q : Fin 512, x0 (ix2 p q) = s (ix2 p q))
    (h1 : ∀ p q : Fin 512, x1 (ix3 b p q) = vm (ix3 β p q))
    (h2 : ∀ (q : Fin 512) (g : Fin 128), x2 (ix3 b q g) = x (ix3 β q g)) :
    k0_pay1 (F := Ideal) x0 x1 x2 (ix3 b n f) = resultAt s vm x β n f := by
  rw [KernelBody.payload_at]
  unfold resultAt
  simp only [h0, h1, h2]

/-- The printed index maps, decided over the sixteen points: the softmax window stays at block (0, 0); the mask,
    feature and result windows are at block (t, 0, 0). -/
theorem index_facts : ∀ t : Fin cfg0.N,
    win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- What point `t` writes back is block `t` of `Propagation.result` of the arrays as the region finds them. -/
theorem written_eq (c : Dev nD) (t : Fin cfg0.N) :
    (dats m 0 c).flushed 3 t
      = ((cfg0.win 3).blk t).view.read (Elt Ideal) (result (V m c main_v10) (V m c main_arg1) (V m c main_arg0)) := by
  rw [Cert.KernelIdeal.Value.flushed3]
  unfold out0_3
  rw [View.canon_unit_zero zero3]
  simp only [View.ld_unit_zero (S := S512x512) zero2, View.ld_unit_zero (S := S4x512x512) zero3,
    View.ld_unit_zero (S := S4x512x128) zero3]
  obtain ⟨a0, a1, b0, b1, b2, c0, c1, c2, d0, d1, d2⟩ := index_facts t
  have ht : t.val < 16 := t.isLt
  refine funext fun (j : S4x512x128.Idx) => ?_
  obtain ⟨b, n, f, rfl⟩ : ∃ (b : Fin 4) (n : Fin 512) (f : Fin 128), j = ix3 b n f := ⟨j 0, j 1, j 2, eq_ix3 j⟩
  show k0_pay1 (F := Ideal) (iblk m c 0 t) (iblk m c 1 t) (iblk m c 2 t) (ix3 b n f)
    = result (V m c main_v10) (V m c main_arg1) (V m c main_arg0) (((cfg0.win 3).blk t).view.emb (ix3 b n f))
  have hemb : ((cfg0.win 3).blk t).view.emb (ix3 b n f) = ix3 (⟨4 * t.val + b.val, by omega⟩ : Fin 64) n f := by
    funext a; apply Fin.ext
    match a with
    | ⟨0, _⟩ => show win0_3.index t (0 : Fin 3) * 4 + 1 * b.val = 4 * t.val + b.val; omega
    | ⟨1, _⟩ => show win0_3.index t (1 : Fin 3) * 512 + 1 * n.val = n.val; omega
    | ⟨2, _⟩ => show win0_3.index t (2 : Fin 3) * 128 + 1 * f.val = f.val; omega
  rw [hemb, result_ix3]
  refine block_value (iblk m c 0 t) (iblk m c 1 t) (iblk m c 2 t) (V m c main_v10) (V m c main_arg1) (V m c main_arg0)
    ⟨4 * t.val + b.val, by omega⟩ b n f ?_ ?_ ?_
  · intro p q
    show V m c main_v10 (((cfg0.win 0).blk t).view.emb (ix2 p q)) = V m c main_v10 (ix2 p q)
    refine congrArg (V m c main_v10) (funext fun a => Fin.ext ?_)
    match a with
    | ⟨0, _⟩ => show win0_0.index t (0 : Fin 2) * 512 + 1 * p.val = p.val; omega
    | ⟨1, _⟩ => show win0_0.index t (1 : Fin 2) * 512 + 1 * q.val = q.val; omega
  · intro p q
    show V m c main_arg1 (((cfg0.win 1).blk t).view.emb (ix3 b p q))
      = V m c main_arg1 (ix3 (⟨4 * t.val + b.val, by omega⟩ : Fin 64) p q)
    refine congrArg (V m c main_arg1) (funext fun a => Fin.ext ?_)
    match a with
    | ⟨0, _⟩ => show win0_1.index t (0 : Fin 3) * 4 + 1 * b.val = 4 * t.val + b.val; omega
    | ⟨1, _⟩ => show win0_1.index t (1 : Fin 3) * 512 + 1 * p.val = p.val; omega
    | ⟨2, _⟩ => show win0_1.index t (2 : Fin 3) * 512 + 1 * q.val = q.val; omega
  · intro q g
    show V m c main_arg0 (((cfg0.win 2).blk t).view.emb (ix3 b q g))
      = V m c main_arg0 (ix3 (⟨4 * t.val + b.val, by omega⟩ : Fin 64) q g)
    refine congrArg (V m c main_arg0) (funext fun a => Fin.ext ?_)
    match a with
    | ⟨0, _⟩ => show win0_2.index t (0 : Fin 3) * 4 + 1 * b.val = 4 * t.val + b.val; omega
    | ⟨1, _⟩ => show win0_2.index t (1 : Fin 3) * 512 + 1 * q.val = q.val; omega
    | ⟨2, _⟩ => show win0_2.index t (2 : Fin 3) * 128 + 1 * g.val = g.val; omega

/-- An index of the result array is in point `t`'s block iff each coordinate is in the block's range on its axis. -/
theorem mem_block (t : Fin cfg0.N) (i : S64x512x128.Idx) :
    i ∈ ((cfg0.win 3).blk t).view.set ↔ ∀ a : Fin 3, win0_3.index t a * S4x512x128.size a ≤ (i a).val
      ∧ (i a).val < win0_3.index t a * S4x512x128.size a + S4x512x128.size a := by
  show i ∈ ((View.whole main_v11).slice (win0_3.rect t)).set ↔ _
  rw [View.set_slice_whole, Rect.mem_set_unit]
  exact Iff.rfl

/-- Every index of the result array lies in the block of the point that handles its batch entry. -/
theorem covered (i : S64x512x128.Idx) :
    ∃ t : Fin cfg0.N, (cfg0.win 3).flush t = true ∧ i ∈ ((cfg0.win 3).blk t).view.set := by
  have hi0 : (i 0).val < 64 := (i 0).isLt
  have hi1 : (i 1).val < 512 := (i 1).isLt
  have hi2 : (i 2).val < 128 := (i 2).isLt
  have hlt : (i 0).val / 4 < 16 := by omega
  refine ⟨⟨(i 0).val / 4, hlt⟩, flush0_3 _, ?_⟩
  rw [mem_block]
  obtain ⟨-, -, -, -, -, -, -, -, d0, d1, d2⟩ := index_facts ⟨(i 0).val / 4, hlt⟩
  have d0' : win0_3.index ⟨(i 0).val / 4, hlt⟩ (0 : Fin 3) = (i 0).val / 4 := d0
  intro a
  match a with
  | ⟨0, _⟩ =>
    show win0_3.index ⟨(i 0).val / 4, hlt⟩ (0 : Fin 3) * 4 ≤ (i 0).val
      ∧ (i 0).val < win0_3.index ⟨(i 0).val / 4, hlt⟩ (0 : Fin 3) * 4 + 4
    omega
  | ⟨1, _⟩ =>
    show win0_3.index ⟨(i 0).val / 4, hlt⟩ (1 : Fin 3) * 512 ≤ (i 1).val
      ∧ (i 1).val < win0_3.index ⟨(i 0).val / 4, hlt⟩ (1 : Fin 3) * 512 + 512
    omega
  | ⟨2, _⟩ =>
    show win0_3.index ⟨(i 0).val / 4, hlt⟩ (2 : Fin 3) * 128 ≤ (i 2).val
      ∧ (i 2).val < win0_3.index ⟨(i 0).val / 4, hlt⟩ (2 : Fin 3) * 128 + 128
    omega

/-- The result array after the run. -/
theorem array_eq (c : Dev nD) :
    (dats m 0 c).arrAt 3 cfg0.N = result (V m c main_v10) (V m c main_arg1) (V m c main_arg0) :=
  (dats m 0 c).arrAt_eq_of_cover 3 (result (V m c main_v10) (V m c main_arg1) (V m c main_arg0))
    (fun t _ => written_eq m c t) covered

/-- The kernel's run: every weakly fair execution terminates with the result array at `Propagation.result` of the
    softmax as the region finds it, the mask and the features, and the arguments unchanged. -/
theorem run : θ_run defs (onTc (τ := τ) (main (F := Ideal))) ⟨m, fun _ => 0, ρ⟩ fun r => ∀ c : Dev nD,
      r.2.mem ((c : Thread nD τ).loc main_v11)
        = result (V m c main_v10) (m ((c : Thread nD τ).loc main_arg1)) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨by
      rw [(h c).1, array_eq, V_main_arg1, V_main_arg0], (h c).2⟩)
    (Cert.KernelIdeal.Value.run_blocks m ρ)

end Cert.KernelArray

end
-- ==== Proof.ReferenceRead.lean ====
/-
  The reference, read at coordinates.

  Its operations, one stage at a time (the generated stage lemmas), at batch entry `b`, node `n`, neighbour `k`:
  the identity matrix is `1` where `n = k` and `0` elsewhere (an integer comparison of the two iotas, converted);
  the adjacency with self loops is softmax · mask + identity; a row's scale is `scaleOf` of the row's sum; the
  normalized adjacency is scale(n) · adjacency(n, k) · scale(k); the result is its product with the features, summed
  over `k`. That is `Propagation.withLoops`, and for real features `Propagation.result`. The softmax itself is never
  opened: it enters as the stage `val_main_v10` of the weights.
-/
import proofs.«107393_j73254962201099_2_alg».proof.Proof.Gen.ReferenceIdeal.Read
import proofs.«107393_j73254962201099_2_alg».proof.Proof.Propagation
import Idealize.ShloMosaic.Lib.Affine

noncomputable section

namespace Cert.ReferenceRead

open Idealize.ShloMosaic Idealize.ShloMosaic.ValueIdx Cert.ReferenceIdeal Cert.ReferenceIdeal.Read Cert.Propagation

/-- Two indices of a rank-2 / rank-3 shape with the same coordinates are equal. -/
local macro "coords2" : tactic =>
  `(tactic| exact funext fun a => Fin.ext (by match a with | ⟨0, _⟩ => rfl | ⟨1, _⟩ => rfl))
local macro "coords3" : tactic =>
  `(tactic| exact funext fun a => Fin.ext (by match a with | ⟨0, _⟩ => rfl | ⟨1, _⟩ => rfl | ⟨2, _⟩ => rfl))

/-- The comparison of row number and column number, as a number: `1` on the diagonal, `0` off it (both numbers are
    below 512, so their 32-bit words are equal only when they are). -/
theorem diagonal_word (n k : Fin 512) :
    (((IntOp.cmpi .eq (IntOp.addi (BitVec.ofNat 32 n.val) 0#32) (BitVec.ofNat 32 k.val)).toNat : ℝ) : EReal)
      = if n = k then 1 else 0 := by
  have hn := n.isLt
  have hk := k.isLt
  by_cases h : n = k
  · subst h
    rw [if_pos rfl]
    have e : IntOp.cmpi .eq (IntOp.addi (BitVec.ofNat 32 n.val) 0#32) (BitVec.ofNat 32 n.val) = 1#1 := by
      rw [IntOp.cmpi_eq]; simp [IntOp.addi]
    rw [e]; simp
  · rw [if_neg h]
    have e : IntOp.cmpi .eq (IntOp.addi (BitVec.ofNat 32 n.val) 0#32) (BitVec.ofNat 32 k.val) = 0#1 := by
      apply eq_zero_of_ne_one
      rw [IntOp.cmpi_eq]
      simp only [IntOp.addi, BitVec.add_zero]
      intro e
      apply h
      apply Fin.ext
      have := congrArg BitVec.toNat e
      simp only [BitVec.toNat_ofNat] at this
      omega
    rw [e]; simp

variable (x0 : (⟨S64x512x128, .f32⟩ : BufTy).Contents (Elt Ideal)) (x1 : (⟨S64x512x512, .f32⟩ : BufTy).Contents (Elt Ideal))
  (x2 : (⟨S512x512, .f32⟩ : BufTy).Contents (Elt Ideal))

/-- The identity matrix, broadcast over the batch. -/
theorem identity_at (b : Fin 64) (n k : Fin 512) :
    val_main_v21 (F := Ideal) (ix3 b n k) = if n = k then 1 else 0 := by
  rw [val_main_v21_apply, val_main_v20_apply]
  have e : idx_main_v20 (idx_main_v21 (ix3 b n k)) = ix2 n k := by coords2
  rw [e, val_main_v19_apply, val_main_v18_apply, val_main_v17_apply, val_main_v14_apply, val_main_v15_apply,
    val_main_v16_apply, val_main_c_apply]
  exact diagonal_word n k

/-- The adjacency with self loops: softmax · mask + identity. -/
theorem adjacency_at (b : Fin 64) (n k : Fin 512) :
    val_main_v22 (F := Ideal) x1 x2 (ix3 b n k)
      = val_main_v10 (F := Ideal) x2 (ix2 n k) * x1 (ix3 b n k) + if n = k then 1 else 0 := by
  rw [val_main_v22_apply, val_main_v13_apply, val_main_v12_apply, val_main_v11_apply, identity_at]
  have e : idx_main_v11 (idx_main_v12 (ix3 b n k)) = ix2 n k := by coords2
  rw [e]
  rfl

/-- A row's scale: `scaleOf` of the row's sum. -/
theorem scale_at (b : Fin 64) (n : Fin 512) :
    val_main_v27 (F := Ideal) x1 x2 (ix2 b n)
      = scaleOf (∑ k : Fin 512, (val_main_v10 (F := Ideal) x2 (ix2 n k) * x1 (ix3 b n k) + if n = k then 1 else 0)) := by
  have hsum : val_main_v23 (F := Ideal) x1 x2 (ix2 b n)
      = ∑ k : Fin 512, (val_main_v10 (F := Ideal) x2 (ix2 n k) * x1 (ix3 b n k) + if n = k then 1 else 0) := by
    rw [val_main_v23_apply, val_main_cst_2_apply]
    show Ideal.ofBits .f32 0x00000000#32 + _ = _
    rw [Ideal.ofBits_zero_f32, zero_add]
    refine Finset.sum_congr rfl fun k _ => ?_
    have e : idx_main_v23 (ix2 b n) k = ix3 b n k := by coords3
    rw [e, adjacency_at]
  rw [val_main_v27_apply, val_main_v25_apply, val_main_v26_apply, val_main_v24_apply, val_main_cst_3_apply,
    val_main_call0_v1_apply, val_main_call0_v0_apply, val_main_cst_4_apply, hsum]
  exact select_gt_rsqrt _

/-- The normalized adjacency: scale(n) · adjacency(n, k) · scale(k). -/
theorem normalized_at (b : Fin 64) (n k : Fin 512) :
    val_main_v33 (F := Ideal) x1 x2 (ix3 b n k)
      = scaleOf (∑ j : Fin 512, (val_main_v10 (F := Ideal) x2 (ix2 n j) * x1 (ix3 b n j) + if n = j then 1 else 0))
        * (val_main_v10 (F := Ideal) x2 (ix2 n k) * x1 (ix3 b n k) + if n = k then 1 else 0)
        * scaleOf (∑ j : Fin 512, (val_main_v10 (F := Ideal) x2 (ix2 k j) * x1 (ix3 b k j) + if k = j then 1 else 0)) := by
  rw [val_main_v33_apply, val_main_v30_apply, val_main_v29_apply, val_main_v28_apply, val_main_v32_apply,
    val_main_v31_apply]
  have e1 : idx_main_v28 (idx_main_v29 (ix3 b n k)) = ix2 b n := by coords2
  have e2 : idx_main_v31 (idx_main_v32 (ix3 b n k)) = ix2 b k := by coords2
  rw [e1, e2, scale_at, scale_at, adjacency_at]
  rfl

/-- The reference's result at `(b, n, f)`: the propagation with the self loops added. -/
theorem reference_at (b : Fin 64) (n : Fin 512) (f : Fin 128) :
    val_main_v34 (F := Ideal) x0 x1 x2 (ix3 b n f)
      = withLoops (fun p q => val_main_v10 (F := Ideal) x2 (ix2 p q) * x1 (ix3 b p q)) (fun q g => x0 (ix3 b q g)) n f := by
  rw [val_main_v34_apply]
  unfold withLoops
  refine Finset.sum_congr rfl fun k _ => ?_
  have el : lidx_main_v34 (ix3 b n f) k = ix3 b n k := by coords3
  have er : ridx_main_v34 (ix3 b n f) k = ix3 b k f := by coords3
  rw [el, er, normalized_at]

/-- For real features the reference's result array is `Propagation.result` of the softmax stage, the mask and the
    features. -/
theorem reference_eq (hx : ∀ i, ∃ y : ℝ, x0 i = (y : EReal)) :
    val_main_v34 (F := Ideal) x0 x1 x2 = Propagation.result (val_main_v10 (F := Ideal) x2) x1 x0 := by
  funext i
  obtain ⟨b, n, f, rfl⟩ : ∃ (b : Fin 64) (n : Fin 512) (f : Fin 128), i = ix3 b n f := ⟨i 0, i 1, i 2, eq_ix3 i⟩
  rw [reference_at, Propagation.result_ix3]
  exact withLoops_eq_loopsFolded _ _ (fun m g => hx _) n f

end Cert.ReferenceRead

end
-- ==== Proof.LibERealFinite.lean ====
/-
  Two general facts about extended reals read as ideal float values.

  * `coe_sum`: the coercion of the reals into the extended reals commutes with finite sums, so an identity between sums
    and products of real-valued entries can be proved over the reals and carried back.
  * `real_of_abs_lt`: an extended real whose absolute value `max x (-x)` compares strictly below the f32 pattern of `+∞`
    (`0x7F800000`) is a real number — what a "every entry is finite" precondition gives, entry by entry (`inf_eq`: that
    pattern is `⊤`).
-/
import Idealize.ShloMosaic.PureOps.Ideal

noncomputable section

namespace Cert.LibERealFinite

open Idealize.ShloMosaic

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 pattern `0x7F800000` is `+∞`. -/
theorem inf_eq : Ideal.ofBits .f32 0x7F800000#32 = (⊤ : EReal) := by
  simp [Ideal.ofBits, Ideal.ieee]

/-- An extended real whose absolute value compares strictly below `+∞` is a real number. -/
theorem real_of_abs_lt (x : EReal) (h : Ideal.cmp .olt (max x (-x)) (Ideal.ofBits .f32 0x7F800000#32) = 1#1) :
    ∃ v : ℝ, x = (v : EReal) := by
  rw [inf_eq] at h
  induction x using EReal.rec with
  | bot => simp [Ideal.cmp] at h
  | coe v => exact ⟨v, rfl⟩
  | top => simp [Ideal.cmp] at h

end Cert.LibERealFinite

end
-- ==== Proof.FiniteFeatures.lean ====
/-
  What the precondition gives: every entry of the feature array is a real number.

  The precondition is the conjunction of three "all entries finite" tests, one per argument, each an `and`-reduction
  over the whole array of `|entry| < +∞`. Its first conjunct, read at one entry of the features, says that entry's
  absolute value is below `+∞`; an extended real with that property is a real. (The other two arguments may hold
  anything: the equivalence does not need them finite.)
-/
import proofs.«107393_j73254962201099_2_alg».proof.Proof.Gen.Pre_finite_inputs
import proofs.«107393_j73254962201099_2_alg».proof.Proof.LibERealFinite
import Idealize.ShloMosaic.Lib.ReduceAll
import Idealize.ShloMosaic.Lib.Affine
import Idealize.ShloMosaic.Lib.ValueIdx

noncomputable section

namespace Cert.FiniteFeatures

open Idealize.ShloMosaic Idealize.ShloMosaic.ValueIdx Cert.Pre_finite_inputs

instance : Subsingleton S_.Idx := ⟨fun a b => funext fun d => d.elim0⟩

/-- If the precondition's test is all ones on three arrays, every entry of the first is a real number. -/
theorem real_of_pre (a0 : FVec Ideal S64x512x128 .f32) (a1 : FVec Ideal S64x512x512 .f32) (a2 : FVec Ideal S512x512 .f32)
    (h : Cert.Pre_finite_inputs.fn (F := Ideal) a0 a1 a2 = fun _ => 1#1) (i : S64x512x128.Idx) :
    ∃ y : ℝ, a0 i = (y : EReal) := by
  have h1 := congrFun h ix0
  dsimp only [Cert.Pre_finite_inputs.fn] at h1
  have h2 := (IntOp.andi_eq_one.mp h1).1
  have h3 := (IntOp.andi_eq_one.mp h2).1
  have h4 := Host.reduce_andi_all _ _ _ _ _ h3 i
  exact LibERealFinite.real_of_abs_lt (a0 i) h4

end Cert.FiniteFeatures

end
-- ==== Proof.lean ====
/-
  The kernel and its reference compute the same propagation step of a graph layer.

  Both programs first take the row softmax of the weights by the same fourteen host operations; it is carried through
  as one array and never opened. From it, the mask and the features, the reference adds an identity matrix (self
  loops) to softmax · mask, scales rows and columns by the inverse square root of the row sums, and multiplies by the
  features. The kernel works on four batch entries per grid point and never forms the identity: it adds `1` to each
  row sum and the term `d(n)² · x(n, f)` to the product with the loop-free adjacency. On the extended reals the two
  agree entry by entry as soon as the features are real numbers, which the precondition gives
  (`Propagation.withLoops_eq_loopsFolded`); the softmax and the mask may hold anything.

  `Propagation` states the common function and that law; `ReferenceRead` reads the reference's operations at an entry;
  `KernelBody` reads the kernel body's stored value at an entry of a block, `KernelArray` assembles the sixteen blocks
  into the result array; `FiniteFeatures` opens the precondition. The three frames are the generated ones (the
  reference's is its run with the result dropped); the kernel's idealization rewrote nothing, so `preserves` is trivial.
-/
import proofs.«107393_j73254962201099_2_alg».proof.Defs
import proofs.«107393_j73254962201099_2_alg».proof.Proof.Gen.Kernel
import proofs.«107393_j73254962201099_2_alg».proof.Proof.Gen.Kernel.Skeleton
import proofs.«107393_j73254962201099_2_alg».proof.Proof.Gen.Kernel.Launch
import proofs.«107393_j73254962201099_2_alg».proof.Proof.Gen.Kernel.Points
import proofs.«107393_j73254962201099_2_alg».proof.Proof.Gen.Kernel.Frame
import proofs.«107393_j73254962201099_2_alg».proof.Proof.Gen.KernelIdeal
import proofs.«107393_j73254962201099_2_alg».proof.Proof.Gen.KernelIdeal.Skeleton
import proofs.«107393_j73254962201099_2_alg».proof.Proof.Gen.KernelIdeal.Launch
import proofs.«107393_j73254962201099_2_alg».proof.Proof.Gen.KernelIdeal.Points
import proofs.«107393_j73254962201099_2_alg».proof.Proof.Gen.KernelIdeal.Frame
import proofs.«107393_j73254962201099_2_alg».proof.Proof.Gen.ReferenceIdeal
import proofs.«107393_j73254962201099_2_alg».proof.Proof.Gen.Pre_finite_inputs
import proofs.«107393_j73254962201099_2_alg».proof.Proof.Gen.KernelIdeal.Value
import proofs.«107393_j73254962201099_2_alg».proof.Proof.Gen.ReferenceIdeal.Run
import proofs.«107393_j73254962201099_2_alg».proof.Proof.Gen.ReferenceIdeal.Read
import proofs.«107393_j73254962201099_2_alg».proof.Proof.KernelArray
import proofs.«107393_j73254962201099_2_alg».proof.Proof.ReferenceRead
import proofs.«107393_j73254962201099_2_alg».proof.Proof.FiniteFeatures
import Idealize.ShloMosaic.Lib.StableHlo.Run
import Idealize.ShloMosaic.Adequacy
import Idealize.ShloMosaic.Init

noncomputable section

namespace Cert.Proof

open Idealize.ShloMosaic Idealize.ShloMosaic.TcCoe Idealize.SL.Sem Idealize.ShloMosaic.StableHlo

/-- The softmax the kernel's region finds in its first window is the reference's softmax stage of the same weights:
    the two programs spell the same fourteen operations. -/
theorem softmax_same (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v10 : Cert.KernelIdeal.S512x512.Idx → EReal)
      = Cert.ReferenceIdeal.Read.val_main_v10 (F := Ideal)
          (m ((c.tc : Thread Cert.KernelIdeal.nD Cert.KernelIdeal.τ).loc Cert.KernelIdeal.main_arg2)) := by
  dsimp only [Cert.KernelIdeal.Gen.V, Cert.KernelIdeal.Gen.hostOps0]
  after_results
  rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at `Propagation.result` of the softmax of the weights, the mask and the
    features: the kernel's by its blocks, the reference's by its operations and the law for real features. -/
theorem algebraic : Cert.algebraic_KernelIdeal_ReferenceIdeal := by
  intro m ρ m' ρ' hpre hagree
  refine ⟨fun c => Cert.Propagation.result
    (Cert.ReferenceIdeal.Read.val_main_v10 (F := Ideal)
      (m ((c.tc : Thread Cert.KernelIdeal.nD Cert.KernelIdeal.τ).loc Cert.KernelIdeal.main_arg2)))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg0)), ?_, ?_⟩
  · refine (θ_run Cert.KernelIdeal.defs _ _).mono (fun r h c => ⟨?_, (h c).2⟩) (Cert.KernelArray.run m ρ)
    rw [(h c).1, softmax_same]
  · refine (θ_run Cert.ReferenceIdeal.defs _ _).mono (fun r h c => ⟨?_, (h c).2⟩)
      (Cert.ReferenceIdeal.Value.run (F := Ideal) m' ρ')
    rw [(h c).1, Cert.ReferenceIdeal.Read.val_main_v34_eq, (hagree c).1, (hagree c).2.1, (hagree c).2.2]
    exact Cert.ReferenceRead.reference_eq _ _ _ (fun i => Cert.FiniteFeatures.real_of_pre _ _ _ (hpre c) i)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
